-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S512x784 : Shape := ⟨2, ![512, 784]⟩
abbrev S512x512 : Shape := ⟨2, ![512, 512]⟩
abbrev S10x512 : Shape := ⟨2, ![10, 512]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S512x784 : S_.BroadcastsInDim S512x784 (![] : Fin 0 → Fin S512x784.rank)
  reducesTo_S512x784_S_d0_1 : S512x784.ReducesTo [0, 1] S_
  bcast_S_S512x512 : S_.BroadcastsInDim S512x512 (![] : Fin 0 → Fin S512x512.rank)
  reducesTo_S512x512_S_d0_1 : S512x512.ReducesTo [0, 1] S_
  bcast_S_S10x512 : S_.BroadcastsInDim S10x512 (![] : Fin 0 → Fin S10x512.rank)
  reducesTo_S10x512_S_d0_1 : S10x512.ReducesTo [0, 1] S_

variable [Facts]

def fn_part1 {F : FTy → Type} [FloatOps F] (main_v13 : IVec S_ 1) (main_v16 : IVec S10x512 1) : IVec S_ 1 :=
  let main_c_5 : IVec S_ 1 := constantI S_ 1 1#1
  let main_v17 : IVec S_ 1 := (fun x v => Host.reduce IntOp.andi x v reducesTo_S10x512_S_d0_1 h_S_) main_v16 main_c_5
  let main_v18 : IVec S_ 1 := andi main_v13 main_v17
  main_v18

def fn {F : FTy → Type} [FloatOps F] (main_arg0 : FVec F S16384x784 .f32) (main_arg1 : FVec F S512x784 .f32) (main_arg2 : FVec F S512x512 .f32) (main_arg3 : FVec F S10x512 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S512x784 .f32 := Host.absf main_arg1
  let main_cst_0 : FVec F S_ .f32 := constant S_ .f32 0x7F800000#32
  let main_v5 : FVec F S512x784 .f32 := broadcastInDim S512x784 ![] bcast_S_S512x784 main_cst_0
  let main_v6 : IVec S512x784 1 := cmpf .olt main_v4 main_v5
  let main_c_1 : IVec S_ 1 := constantI S_ 1 1#1
  let main_v7 : IVec S_ 1 := (fun x v => Host.reduce IntOp.andi x v reducesTo_S512x784_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S10x512 .f32 := Host.absf main_arg3
  let main_cst_4 : FVec F S_ .f32 := constant S_ .f32 0x7F800000#32
  let main_v15 : FVec F S10x512 .f32 := broadcastInDim S10x512 ![] bcast_S_S10x512 main_cst_4
  let main_v16 : IVec S10x512 1 := cmpf .olt main_v14 main_v15
  fn_part1 (F := F) main_v13 main_v16
-- ==== Kernel.lean ====
abbrev S16384x784 : Shape := ⟨2, ![16384, 784]⟩
abbrev S512x784 : Shape := ⟨2, ![512, 784]⟩
abbrev S512x512 : Shape := ⟨2, ![512, 512]⟩
abbrev S10x512 : Shape := ⟨2, ![10, 512]⟩
abbrev S784x16384 : Shape := ⟨2, ![784, 16384]⟩
abbrev S784x512 : Shape := ⟨2, ![784, 512]⟩
abbrev S10x16384 : Shape := ⟨2, ![10, 16384]⟩
abbrev S16384x10 : Shape := ⟨2, ![16384, 10]⟩
abbrev S784x2048 : Shape := ⟨2, ![784, 2048]⟩
abbrev S10x2048 : Shape := ⟨2, ![10, 2048]⟩
abbrev S784x1024 : Shape := ⟨2, ![784, 1024]⟩
abbrev S512x1024 : Shape := ⟨2, ![512, 1024]⟩
abbrev S10x1024 : Shape := ⟨2, ![10, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x784, .f32⟩
  | .hbm, ⟨1, _⟩ => ⟨S512x784, .f32⟩
  | .hbm, ⟨2, _⟩ => ⟨S512x512, .f32⟩
  | .hbm, ⟨3, _⟩ => ⟨S10x512, .f32⟩
  | .hbm, ⟨4, _⟩ => ⟨S784x16384, .f32⟩
  | .hbm, ⟨5, _⟩ => ⟨S784x512, .f32⟩
  | .hbm, ⟨6, _⟩ => ⟨S10x16384, .f32⟩
  | .hbm, ⟨7, _⟩ => ⟨S16384x10, .f32⟩
  | .local _ .vmem, ⟨0, _⟩ => ⟨S784x2048, .f32⟩
  | .local _ .vmem, ⟨1, _⟩ => ⟨S784x2048, .f32⟩
  | .local _ .vmem, ⟨2, _⟩ => ⟨S784x512, .f32⟩
  | .local _ .vmem, ⟨3, _⟩ => ⟨S512x512, .f32⟩
  | .local _ .vmem, ⟨4, _⟩ => ⟨S10x512, .f32⟩
  | .local _ .vmem, ⟨5, _⟩ => ⟨S10x2048, .f32⟩
  | .local _ .vmem, ⟨6, _⟩ => ⟨S10x2048, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S784x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S16384x784_S784x16384_1_0 : S16384x784.Transposes [1, 0] S784x16384
  transposes_S512x784_S784x512_1_0 : S512x784.Transposes [1, 0] S784x512
  transposes_S10x16384_S16384x10_1_0 : S10x16384.Transposes [1, 0] S16384x10
  inb_S784x512_S784x512_0_0 : ∀ a, (![0, 0] : Fin 2 → Nat) a + S784x512.size a ≤ S784x512.size a
  h_S784x512 : 0 < S784x512.numel
  shapeCasts_S784x512_S784x512 : S784x512.ShapeCasts S784x512
  inb_S784x2048_S784x1024_0_0 : ∀ a, (![0, 0] : Fin 2 → Nat) a + S784x1024.size a ≤ S784x2048.size a
  h_S784x1024 : 0 < S784x1024.numel
  shapeCasts_S784x1024_S784x1024 : S784x1024.ShapeCasts S784x1024
  inb_S512x512_S512x512_0_0 : ∀ a, (![0, 0] : Fin 2 → Nat) a + S512x512.size a ≤ S512x512.size a
  h_S512x512 : 0 < S512x512.numel
  inb_S10x512_S10x512_0_0 : ∀ a, (![0, 0] : Fin 2 → Nat) a + S10x512.size a ≤ S10x512.size a
  h_S10x512 : 0 < S10x512.numel
  inb_S10x2048_S10x1024_0_0 : ∀ a, (![0, 0] : Fin 2 → Nat) a + S10x1024.size a ≤ S10x2048.size a
  h_S10x1024 : 0 < S10x1024.numel
  inb_S784x2048_S784x1024_0_1024 : ∀ a, (![0, 1024] : Fin 2 → Nat) a + S784x1024.size a ≤ S784x2048.size a
  inb_S10x2048_S10x1024_0_1024 : ∀ a, (![0, 1024] : Fin 2 → Nat) a + S10x1024.size a ≤ S10x2048.size a
  dot_S784x512_S784x1024_S512x1024_0_0_1_1_n_n_wf : DotDims.WF S784x512 S784x1024 S512x1024 [0] [0] [1] [1] [] []
  dot_S512x512_S512x1024_S512x1024_1_0_0_1_n_n_wf : DotDims.WF S512x512 S512x1024 S512x1024 [1] [0] [0] [1] [] []
  dot_S10x512_S512x1024_S10x1024_1_0_0_1_n_n_wf : DotDims.WF S10x512 S512x1024 S10x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S784x2048.size a ≤ S784x16384.size a
  hwx0_0 : ∀ i : grid0.Coords, EltTy.bits .f32 = 32 ∨ (Rect.block (s := S784x16384) S784x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x512.size a ≤ S784x512.size a
  hwx0_1 : ∀ i : grid0.Coords, EltTy.bits .f32 = 32 ∨ (Rect.block (s := S784x512) S784x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x512.size a ≤ S10x512.size a
  hwx0_3 : ∀ i : grid0.Coords, EltTy.bits .f32 = 32 ∨ (Rect.block (s := S10x512) S10x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10x2048.size a ≤ S10x16384.size a
  hwx0_4 : ∀ i : grid0.Coords, EltTy.bits .f32 = 32 ∨ (Rect.block (s := S10x16384) S10x2048.size (cc0_transform_4 i) (hinb0_4 i)).WholeWords (EltTy.packing .f32)

variable [Facts₀]

def dot_S784x512_S784x1024_S512x1024_0_0_1_1_n_n : DotDims S784x512 S784x1024 S512x1024 where
  lhsContracting := [0]
  rhsContracting := [0]
  lhsNonContracting := [1]
  rhsNonContracting := [1]
  lhsBatch := []
  rhsBatch := []
  wf := dot_S784x512_S784x1024_S512x1024_0_0_1_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S10x512_S512x1024_S10x1024_1_0_0_1_n_n : DotDims S10x512 S512x1024 S10x1024 where
  lhsContracting := [1]
  rhsContracting := [0]
  lhsNonContracting := [0]
  rhsNonContracting := [1]
  lhsBatch := []
  rhsBatch := []
  wf := dot_S10x512_S512x1024_S10x1024_1_0_0_1_n_n_wf

abbrev win0_0 : Pipeline.Window sig grid0 :=
  Pipeline.Window.ofSpec (Memref.whole main_call0_v0) S784x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S784x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S10x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x784 : Shape := ⟨2, ![16384, 784]⟩
abbrev S512x784 : Shape := ⟨2, ![512, 784]⟩
abbrev S512x512 : Shape := ⟨2, ![512, 512]⟩
abbrev S10x512 : Shape := ⟨2, ![10, 512]⟩
abbrev S784x16384 : Shape := ⟨2, ![784, 16384]⟩
abbrev S512x16384 : Shape := ⟨2, ![512, 16384]⟩
abbrev S_ : Shape := ⟨0, ![]⟩
abbrev S10x16384 : Shape := ⟨2, ![10, 16384]⟩
abbrev S16384x10 : Shape := ⟨2, ![16384, 10]⟩

abbrev nBuf : Space → Nat
  | .hbm => 15
  | .vmem => 0
  | .smem => 0
  | _ => 0

abbrev bufTy : (tb : Table) → Fin (tcTables nBuf tb) → BufTy
  | .hbm, ⟨0, _⟩ => ⟨S16384x784, .f32⟩
  | .hbm, ⟨1, _⟩ => ⟨S512x784, .f32⟩
  | .hbm, ⟨2, _⟩ => ⟨S512x512, .f32⟩
  | .hbm, ⟨3, _⟩ => ⟨S10x512, .f32⟩
  | .hbm, ⟨4, _⟩ => ⟨S784x16384, .f32⟩
  | .hbm, ⟨5, _⟩ => ⟨S512x16384, .f32⟩
  | .hbm, ⟨6, _⟩ => ⟨S_, .f32⟩
  | .hbm, ⟨7, _⟩ => ⟨S512x16384, .f32⟩
  | .hbm, ⟨8, _⟩ => ⟨S512x16384, .f32⟩
  | .hbm, ⟨9, _⟩ => ⟨S512x16384, .f32⟩
  | .hbm, ⟨10, _⟩ => ⟨S_, .f32⟩
  | .hbm, ⟨11, _⟩ => ⟨S512x16384, .f32⟩
  | .hbm, ⟨12, _⟩ => ⟨S512x16384, .f32⟩
  | .hbm, ⟨13, _⟩ => ⟨S10x16384, .f32⟩
  | .hbm, ⟨14, _⟩ => ⟨S16384x10, .f32⟩
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_call1_cst : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  transposes_S16384x784_S784x16384_1_0 : S16384x784.Transposes [1, 0] S784x16384
  bcast_S_S512x16384 : S_.BroadcastsInDim S512x16384 (![] : Fin 0 → Fin S512x16384.rank)
  transposes_S10x16384_S16384x10_1_0 : S10x16384.Transposes [1, 0] S16384x10
  dot_S512x784_S784x16384_S512x16384_1_0_0_1_n_n_wf : DotDims.WF S512x784 S784x16384 S512x16384 [1] [0] [0] [1] [] []
  dot_S512x512_S512x16384_S512x16384_1_0_0_1_n_n_wf : DotDims.WF S512x512 S512x16384 S512x16384 [1] [0] [0] [1] [] []
  dot_S10x512_S512x16384_S10x16384_1_0_0_1_n_n_wf : DotDims.WF S10x512 S512x16384 S10x16384 [1] [0] [0] [1] [] []

variable [Facts₀]

def dot_S512x784_S784x16384_S512x16384_1_0_0_1_n_n : DotDims S512x784 S784x16384 S512x16384 where
  lhsContracting := [1]
  rhsContracting := [0]
  lhsNonContracting := [0]
  rhsNonContracting := [1]
  lhsBatch := []
  rhsBatch := []
  wf := dot_S512x784_S784x16384_S512x16384_1_0_0_1_n_n_wf
def dot_S512x512_S512x16384_S512x16384_1_0_0_1_n_n : DotDims S512x512 S512x16384 S512x16384 where
  lhsContracting := [1]
  rhsContracting := [0]
  lhsNonContracting := [0]
  rhsNonContracting := [1]
  lhsBatch := []
  rhsBatch := []
  wf := dot_S512x512_S512x16384_S512x16384_1_0_0_1_n_n_wf
def dot_S10x512_S512x16384_S10x16384_1_0_0_1_n_n : DotDims S10x512 S512x16384 S10x16384 where
  lhsContracting := [1]
  rhsContracting := [0]
  lhsNonContracting := [0]
  rhsNonContracting := [1]
  lhsBatch := []
  rhsBatch := []
  wf := dot_S10x512_S512x16384_S10x16384_1_0_0_1_n_n_wf

class Facts : Prop extends Facts₀ where

variable [Facts]
-- ==== Proof.Mlp.lean ====
/-
  The network of this certificate, one sample at a time, over the extended reals.

  A sample is a vector x of 784 features.  The first layer has 512 units; unit j weighs feature i by A(i, j), sums,
  and keeps the positive part:  h1(j) = max(Σ_i A(i, j) · x(i), 0).  The second layer has 512 units with weights
  B(k, j):  h2(k) = max(Σ_j B(k, j) · h1(j), 0).  The last layer has 10 outputs with weights C(o, k) and no
  rectifier:  out(o) = Σ_k C(o, k) · h2(k).

  Over a batch of 16384 samples stored as the rows of X, with the first layer's weights stored unit by unit
  (W1(j, i) = A(i, j)), the 10 × 16384 array of outputs has at (o, b) the output o of sample b.  Both programs of the
  certificate compute this array and then exchange its two axes.
-/
import Idealize.ShloMosaic.Lib.ValueIdx
import Idealize.ShloMosaic.PureOps.Ideal.Laws

noncomputable section

open scoped BigOperators

namespace Cert.Mlp

open Idealize.ShloMosaic Idealize.ShloMosaic.ValueIdx

/-- Output o of one sample x: three weighted sums, the first two followed by the positive part. -/
def forwardOne (A : Fin 784 → Fin 512 → EReal) (x : Fin 784 → EReal) (B : Fin 512 → Fin 512 → EReal)
    (C : Fin 10 → Fin 512 → EReal) (o : Fin 10) : EReal :=
  ∑ k : Fin 512, C o k * max (∑ j : Fin 512, B k j * max (∑ i : Fin 784, A i j * x i) 0) 0

/-- The output depends on the weights, the sample and the output's number only through their values. -/
theorem forwardOne_congr {A A' : Fin 784 → Fin 512 → EReal} {x x' : Fin 784 → EReal} {B B' : Fin 512 → Fin 512 → EReal}
    {C C' : Fin 10 → Fin 512 → EReal} {o o' : Fin 10} (hA : ∀ i j, A i j = A' i j) (hx : ∀ i, x i = x' i)
    (hB : ∀ k j, B k j = B' k j) (hC : ∀ o k, C o k = C' o k) (ho : o = o') :
    forwardOne A x B C o = forwardOne A' x' B' C' o' := by
  obtain rfl : A = A' := funext fun i => funext fun j => hA i j
  obtain rfl : x = x' := funext hx
  obtain rfl : B = B' := funext fun k => funext fun j => hB k j
  obtain rfl : C = C' := funext fun o => funext fun k => hC o k
  rw [ho]

/-- The 10 × 16384 array of outputs of the batch X (one sample per row) under the weights W1 (unit by unit), W2, W3:
    at (o, b), output o of sample b. -/
def logitsT (X : (⟨2, ![16384, 784]⟩ : Shape).Idx → EReal) (W1 : (⟨2, ![512, 784]⟩ : Shape).Idx → EReal)
    (W2 : (⟨2, ![512, 512]⟩ : Shape).Idx → EReal) (W3 : (⟨2, ![10, 512]⟩ : Shape).Idx → EReal) :
    (⟨2, ![10, 16384]⟩ : Shape).Idx → EReal :=
  fun i => forwardOne (fun a j => W1 (ix2 j a)) (fun a => X (ix2 (i 1) a)) (fun k j => W2 (ix2 k j))
    (fun o k => W3 (ix2 o k)) (i 0)

/-- The same at an index given by its two coordinates. -/
theorem logitsT_ix2 (X : (⟨2, ![16384, 784]⟩ : Shape).Idx → EReal) (W1 : (⟨2, ![512, 784]⟩ : Shape).Idx → EReal)
    (W2 : (⟨2, ![512, 512]⟩ : Shape).Idx → EReal) (W3 : (⟨2, ![10, 512]⟩ : Shape).Idx → EReal) (o : Fin 10) (b : Fin 16384) :
    logitsT X W1 W2 W3 (ix2 o b)
      = forwardOne (fun a j => W1 (ix2 j a)) (fun a => X (ix2 b a)) (fun k j => W2 (ix2 k j)) (fun o k => W3 (ix2 o k)) o := rfl

end Cert.Mlp

end
-- ==== Proof.RefSide.lean ====
/-
  The reference computes the network layer by layer on whole arrays: the batch with its axes exchanged (784 × 16384),
  a 512 × 784 by 784 × 16384 product and the positive part, a 512 × 512 by 512 × 16384 product and the positive
  part, a 10 × 512 by 512 × 16384 product.  Column b of every intermediate array depends on sample b alone, so the
  10 × 16384 array before the last exchange of axes has, at (o, b), output o of sample b.
-/
import proofs.«132823_g41755672052512_cont_8to1_b_1445_26_alg».proof.Proof.Gen.ReferenceIdeal.Read
import proofs.«132823_g41755672052512_cont_8to1_b_1445_26_alg».proof.Proof.Mlp

noncomputable section

open scoped BigOperators

namespace Cert.ReferenceIdeal.RefValue

open Cert.ReferenceIdeal Cert.ReferenceIdeal.Gen Cert.ReferenceIdeal.Read Idealize.ShloMosaic Idealize.ShloMosaic.ValueIdx

/-- First hidden layer at unit j and sample b. -/
theorem hidden1 (x0 : (⟨S16384x784, .f32⟩ : BufTy).Contents (Elt Ideal)) (x1 : (⟨S512x784, .f32⟩ : BufTy).Contents (Elt Ideal))
    (j : Fin 512) (b : Fin 16384) :
    val_main_v2 (F := Ideal) x0 x1 (ix2 j b) = max (∑ i : Fin 784, x1 (ix2 j i) * x0 (ix2 b i)) 0 := by
  rw [val_main_v2_apply, val_main_v1_apply, val_main_call0_v0_apply, val_main_call0_cst_apply, Ideal.maximumf_def,
    Ideal.ofBits_def, Ideal.ofBits_zero_f32]
  refine congrArg (fun s : EReal => max s 0) (Finset.sum_congr rfl fun i _ => ?_)
  rw [val_main_v0_apply]
  have e1 : lidx_main_v1 (ix2 j b) i = ix2 j i := funext fun a => Fin.ext (by match a with | ⟨0, _⟩ => rfl | ⟨1, _⟩ => rfl)
  have e2 : idx_main_v0 (ridx_main_v1 (ix2 j b) i) = ix2 b i := funext fun a => Fin.ext (by match a with | ⟨0, _⟩ => rfl | ⟨1, _⟩ => rfl)
  rw [e1, e2]

/-- Second hidden layer at unit k and sample b, from the first. -/
theorem hidden2 (x0 : (⟨S16384x784, .f32⟩ : BufTy).Contents (Elt Ideal)) (x1 : (⟨S512x784, .f32⟩ : BufTy).Contents (Elt Ideal))
    (x2 : (⟨S512x512, .f32⟩ : BufTy).Contents (Elt Ideal)) (k : Fin 512) (b : Fin 16384) :
    val_main_v4 (F := Ideal) x0 x1 x2 (ix2 k b)
      = max (∑ j : Fin 512, x2 (ix2 k j) * val_main_v2 (F := Ideal) x0 x1 (ix2 j b)) 0 := by
  rw [val_main_v4_apply, val_main_v3_apply, val_main_call1_v0_apply, val_main_call1_cst_apply, Ideal.maximumf_def,
    Ideal.ofBits_def, Ideal.ofBits_zero_f32]
  refine congrArg (fun s : EReal => max s 0) (Finset.sum_congr rfl fun j _ => ?_)
  have e1 : lidx_main_v3 (ix2 k b) j = ix2 k j := funext fun a => Fin.ext (by match a with | ⟨0, _⟩ => rfl | ⟨1, _⟩ => rfl)
  have e2 : ridx_main_v3 (ix2 k b) j = ix2 j b := funext fun a => Fin.ext (by match a with | ⟨0, _⟩ => rfl | ⟨1, _⟩ => rfl)
  rw [e1, e2]

/-- The array of outputs before the last exchange of axes is the network's, sample by sample. -/
theorem outputs_eq (x0 : (⟨S16384x784, .f32⟩ : BufTy).Contents (Elt Ideal)) (x1 : (⟨S512x784, .f32⟩ : BufTy).Contents (Elt Ideal))
    (x2 : (⟨S512x512, .f32⟩ : BufTy).Contents (Elt Ideal)) (x3 : (⟨S10x512, .f32⟩ : BufTy).Contents (Elt Ideal)) :
    val_main_v5 (F := Ideal) x0 x1 x2 x3 = Cert.Mlp.logitsT x0 x1 x2 x3 := by
  funext i
  obtain ⟨o, b, rfl⟩ : ∃ (o : Fin 10) (b : Fin 16384), i = ix2 o b := ⟨i 0, i 1, eq_ix2 i⟩
  rw [val_main_v5_apply, Cert.Mlp.logitsT_ix2]
  unfold Cert.Mlp.forwardOne
  refine Finset.sum_congr rfl fun k _ => ?_
  have e1 : lidx_main_v5 (ix2 o b) k = ix2 o k := funext fun a => Fin.ext (by match a with | ⟨0, _⟩ => rfl | ⟨1, _⟩ => rfl)
  have e2 : ridx_main_v5 (ix2 o b) k = ix2 k b := funext fun a => Fin.ext (by match a with | ⟨0, _⟩ => rfl | ⟨1, _⟩ => rfl)
  rw [e1, e2, hidden2]
  refine congrArg (fun s : EReal => x3 (ix2 o k) * max s 0) (Finset.sum_congr rfl fun j _ => ?_)
  rw [hidden1]

end Cert.ReferenceIdeal.RefValue

end
-- ==== Proof.Payload.lean ====
/-
  What the kernel's body computes from the blocks it loads, one entry at a time.

  The body receives the first layer's weights feature by feature (784 × 512: entry (i, j) weighs feature i for unit j),
  1024 samples as the columns of a 784 × 1024 block, and the other two layers' weights.  Its first product contracts
  the FIRST axis of both operands, so entry (j, c) is Σ_i w1t(i, j) · xt(i, c); the other two are plain products.
  Each product accumulates into zero, and the positive part is taken entrywise against a splat of zero.  Hence entry
  (o, c) of the 10 × 1024 result is output o of the network on the sample stored in column c.
-/
import proofs.«132823_g41755672052512_cont_8to1_b_1445_26_alg».proof.Proof.Gen.KernelIdeal.Skeleton
import proofs.«132823_g41755672052512_cont_8to1_b_1445_26_alg».proof.Proof.Mlp
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ### Which entry of each operand a product reads, coordinate by coordinate -/

theorem dotT_l0 (i : S512x1024.Idx) (q : dot_S784x512_S784x1024_S512x1024_0_0_1_1_n_n.contr.Idx) :
    (dot_S784x512_S784x1024_S512x1024_0_0_1_1_n_n.lhsIdx i q 0).val = (q ⟨0, by decide⟩).val :=
  dot_S784x512_S784x1024_S512x1024_0_0_1_1_n_n.lhsIdx_val_of_single rfl i q
theorem dotT_l1 (i : S512x1024.Idx) (q : dot_S784x512_S784x1024_S512x1024_0_0_1_1_n_n.contr.Idx) :
    (dot_S784x512_S784x1024_S512x1024_0_0_1_1_n_n.lhsIdx i q 1).val = (i 0).val := by
  unfold DotDims.lhsIdx
  rw [dif_neg (show ¬(1 : Fin S784x512.rank) ∈ dot_S784x512_S784x1024_S512x1024_0_0_1_1_n_n.lhsBatch by decide),
    dif_pos (show (1 : Fin S784x512.rank) ∈ dot_S784x512_S784x1024_S512x1024_0_0_1_1_n_n.lhsNonContracting by decide)]
  rfl
theorem dotT_r0 (i : S512x1024.Idx) (q : dot_S784x512_S784x1024_S512x1024_0_0_1_1_n_n.contr.Idx) :
    (dot_S784x512_S784x1024_S512x1024_0_0_1_1_n_n.rhsIdx i q 0).val = (q ⟨0, by decide⟩).val :=
  dot_S784x512_S784x1024_S512x1024_0_0_1_1_n_n.rhsIdx_val_of_single rfl i q
theorem dotT_r1 (i : S512x1024.Idx) (q : dot_S784x512_S784x1024_S512x1024_0_0_1_1_n_n.contr.Idx) :
    (dot_S784x512_S784x1024_S512x1024_0_0_1_1_n_n.rhsIdx i q 1).val = (i 1).val := by
  unfold DotDims.rhsIdx
  rw [dif_neg (show ¬(1 : Fin S784x1024.rank) ∈ dot_S784x512_S784x1024_S512x1024_0_0_1_1_n_n.rhsBatch by decide),
    dif_pos (show (1 : Fin S784x1024.rank) ∈ dot_S784x512_S784x1024_S512x1024_0_0_1_1_n_n.rhsNonContracting by decide)]
  rfl
theorem dot2_l0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem dot2_l1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem dot2_r0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem dot2_r1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl
theorem dot3_l0 (i : S10x1024.Idx) (q : dot_S10x512_S512x1024_S10x1024_1_0_0_1_n_n.contr.Idx) :
    (dot_S10x512_S512x1024_S10x1024_1_0_0_1_n_n.lhsIdx i q 0).val = (i 0).val := by
  unfold DotDims.lhsIdx
  rw [dif_neg (show ¬(0 : Fin S10x512.rank) ∈ dot_S10x512_S512x1024_S10x1024_1_0_0_1_n_n.lhsBatch by decide),
    dif_pos (show (0 : Fin S10x512.rank) ∈ dot_S10x512_S512x1024_S10x1024_1_0_0_1_n_n.lhsNonContracting by decide)]
  rfl
theorem dot3_l1 (i : S10x1024.Idx) (q : dot_S10x512_S512x1024_S10x1024_1_0_0_1_n_n.contr.Idx) :
    (dot_S10x512_S512x1024_S10x1024_1_0_0_1_n_n.lhsIdx i q 1).val = (q ⟨0, by decide⟩).val :=
  dot_S10x512_S512x1024_S10x1024_1_0_0_1_n_n.lhsIdx_val_of_single rfl i q
theorem dot3_r0 (i : S10x1024.Idx) (q : dot_S10x512_S512x1024_S10x1024_1_0_0_1_n_n.contr.Idx) :
    (dot_S10x512_S512x1024_S10x1024_1_0_0_1_n_n.rhsIdx i q 0).val = (q ⟨0, by decide⟩).val :=
  dot_S10x512_S512x1024_S10x1024_1_0_0_1_n_n.rhsIdx_val_of_single rfl i q
theorem dot3_r1 (i : S10x1024.Idx) (q : dot_S10x512_S512x1024_S10x1024_1_0_0_1_n_n.contr.Idx) :
    (dot_S10x512_S512x1024_S10x1024_1_0_0_1_n_n.rhsIdx i q 1).val = (i 1).val := by
  unfold DotDims.rhsIdx
  rw [dif_neg (show ¬(1 : Fin S512x1024.rank) ∈ dot_S10x512_S512x1024_S10x1024_1_0_0_1_n_n.rhsBatch by decide),
    dif_pos (show (1 : Fin S512x1024.rank) ∈ dot_S10x512_S512x1024_S10x1024_1_0_0_1_n_n.rhsNonContracting by decide)]
  rfl

/-- The product contracted on the first axis of both operands, into zero, at entry (j, c). -/
theorem dotT_apply (l : FVec Ideal S784x512 .f32) (r : FVec Ideal S784x1024 .f32) (j : Fin 512) (c : Fin 1024) :
    FloatOps.matmul dot_S784x512_S784x1024_S512x1024_0_0_1_1_n_n none l r (constant (F := Ideal) S512x1024 .f32 0x00000000#32) (ix2 j c)
      = ∑ i : Fin 784, l (ix2 i j) * r (ix2 i c) := by
  rw [Ideal.matmul_constant_zero_apply, ← Equiv.sum_comp (contrEquiv1 dot_S784x512_S784x1024_S512x1024_0_0_1_1_n_n 784 rfl rfl).symm]
  refine Finset.sum_congr rfl fun i _ => ?_
  have hk := contrEquiv1_symm_val dot_S784x512_S784x1024_S512x1024_0_0_1_1_n_n 784 rfl rfl i
  have el : dot_S784x512_S784x1024_S512x1024_0_0_1_1_n_n.lhsIdx (ix2 j c) ((contrEquiv1 dot_S784x512_S784x1024_S512x1024_0_0_1_1_n_n 784 rfl rfl).symm i) = ix2 i j := funext fun a => Fin.ext (by
    match a with
    | ⟨0, _⟩ => exact (dotT_l0 _ _).trans hk
    | ⟨1, _⟩ => exact dotT_l1 _ _)
  have er : dot_S784x512_S784x1024_S512x1024_0_0_1_1_n_n.rhsIdx (ix2 j c) ((contrEquiv1 dot_S784x512_S784x1024_S512x1024_0_0_1_1_n_n 784 rfl rfl).symm i) = ix2 i c := funext fun a => Fin.ext (by
    match a with
    | ⟨0, _⟩ => exact (dotT_r0 _ _).trans hk
    | ⟨1, _⟩ => exact dotT_r1 _ _)
  rw [el, er]

/-- The plain 512 × 512 by 512 × 1024 product into zero, at entry (k, c). -/
theorem dot2_apply (l : FVec Ideal S512x512 .f32) (r : FVec Ideal S512x1024 .f32) (k : Fin 512) (c : Fin 1024) :
    FloatOps.matmul dot_S512x512_S512x1024_S512x1024_1_0_0_1_n_n none l r (constant (F := Ideal) S512x1024 .f32 0x00000000#32) (ix2 k c)
      = ∑ j : Fin 512, l (ix2 k j) * r (ix2 j c) := by
  rw [Ideal.matmul_constant_zero_apply, ← Equiv.sum_comp (contrEquiv1 dot_S512x512_S512x1024_S512x1024_1_0_0_1_n_n 512 rfl rfl).symm]
  refine Finset.sum_congr rfl fun j _ => ?_
  have hk := contrEquiv1_symm_val dot_S512x512_S512x1024_S512x1024_1_0_0_1_n_n 512 rfl rfl j
  have el : dot_S512x512_S512x1024_S512x1024_1_0_0_1_n_n.lhsIdx (ix2 k c) ((contrEquiv1 dot_S512x512_S512x1024_S512x1024_1_0_0_1_n_n 512 rfl rfl).symm j) = ix2 k j := funext fun a => Fin.ext (by
    match a with
    | ⟨0, _⟩ => exact dot2_l0 _ _
    | ⟨1, _⟩ => exact (dot2_l1 _ _).trans hk)
  have er : dot_S512x512_S512x1024_S512x1024_1_0_0_1_n_n.rhsIdx (ix2 k c) ((contrEquiv1 dot_S512x512_S512x1024_S512x1024_1_0_0_1_n_n 512 rfl rfl).symm j) = ix2 j c := funext fun a => Fin.ext (by
    match a with
    | ⟨0, _⟩ => exact (dot2_r0 _ _).trans hk
    | ⟨1, _⟩ => exact dot2_r1 _ _)
  rw [el, er]

/-- The plain 10 × 512 by 512 × 1024 product into zero, at entry (o, c). -/
theorem dot3_apply (l : FVec Ideal S10x512 .f32) (r : FVec Ideal S512x1024 .f32) (o : Fin 10) (c : Fin 1024) :
    FloatOps.matmul dot_S10x512_S512x1024_S10x1024_1_0_0_1_n_n none l r (constant (F := Ideal) S10x1024 .f32 0x00000000#32) (ix2 o c)
      = ∑ k : Fin 512, l (ix2 o k) * r (ix2 k c) := by
  rw [Ideal.matmul_constant_zero_apply, ← Equiv.sum_comp (contrEquiv1 dot_S10x512_S512x1024_S10x1024_1_0_0_1_n_n 512 rfl rfl).symm]
  refine Finset.sum_congr rfl fun k _ => ?_
  have hk := contrEquiv1_symm_val dot_S10x512_S512x1024_S10x1024_1_0_0_1_n_n 512 rfl rfl k
  have el : dot_S10x512_S512x1024_S10x1024_1_0_0_1_n_n.lhsIdx (ix2 o c) ((contrEquiv1 dot_S10x512_S512x1024_S10x1024_1_0_0_1_n_n 512 rfl rfl).symm k) = ix2 o k := funext fun a => Fin.ext (by
    match a with
    | ⟨0, _⟩ => exact dot3_l0 _ _
    | ⟨1, _⟩ => exact (dot3_l1 _ _).trans hk)
  have er : dot_S10x512_S512x1024_S10x1024_1_0_0_1_n_n.rhsIdx (ix2 o c) ((contrEquiv1 dot_S10x512_S512x1024_S10x1024_1_0_0_1_n_n 512 rfl rfl).symm k) = ix2 k c := funext fun a => Fin.ext (by
    match a with
    | ⟨0, _⟩ => exact (dot3_r0 _ _).trans hk
    | ⟨1, _⟩ => exact dot3_r1 _ _)
  rw [el, er]

/-- The three layers on loaded blocks, at entry (o, c): output o of the sample in column c. -/
def tileOut (w1t : FVec Ideal S784x512 .f32) (xt : FVec Ideal S784x1024 .f32) (w2 : FVec Ideal S512x512 .f32)
    (w3 : FVec Ideal S10x512 .f32) : FVec Ideal S10x1024 .f32 :=
  matmul dot_S10x512_S512x1024_S10x1024_1_0_0_1_n_n none w3
    (maximumf (matmul dot_S512x512_S512x1024_S512x1024_1_0_0_1_n_n none w2
      (maximumf (matmul dot_S784x512_S784x1024_S512x1024_0_0_1_1_n_n none w1t xt (constant (F := Ideal) S512x1024 .f32 0x00000000#32))
        (broadcast S512x1024 (Scalar.ofBits (F := Ideal) .f32 0x00000000#32)))
      (constant (F := Ideal) S512x1024 .f32 0x00000000#32))
      (broadcast S512x1024 (Scalar.ofBits (F := Ideal) .f32 0x00000000#32)))
    (constant (F := Ideal) S10x1024 .f32 0x00000000#32)

theorem tileOut_apply (w1t : FVec Ideal S784x512 .f32) (xt : FVec Ideal S784x1024 .f32) (w2 : FVec Ideal S512x512 .f32)
    (w3 : FVec Ideal S10x512 .f32) (o : Fin 10) (c : Fin 1024) :
    tileOut w1t xt w2 w3 (ix2 o c)
      = Cert.Mlp.forwardOne (fun i j => w1t (ix2 i j)) (fun i => xt (ix2 i c)) (fun k j => w2 (ix2 k j)) (fun o k => w3 (ix2 o k)) o := by
  unfold tileOut Cert.Mlp.forwardOne
  refine (dot3_apply w3 _ o c).trans (Finset.sum_congr rfl fun k _ => ?_)
  refine congrArg (fun s : EReal => w3 (ix2 o k) * s) ?_
  rw [maximumf_apply, broadcast_apply]
  refine congrArg₂ (fun a b : EReal => max a b) ?_ Ideal.ofBits_zero_f32
  refine (dot2_apply w2 _ k c).trans (Finset.sum_congr rfl fun j _ => ?_)
  refine congrArg (fun s : EReal => w2 (ix2 k j) * s) ?_
  rw [maximumf_apply, broadcast_apply]
  exact congrArg₂ (fun a b : EReal => max a b) (dotT_apply w1t xt j c) Ideal.ofBits_zero_f32

/-- The body's two results (one per half of the block of samples) are that function of the loaded blocks: the
    casts in front of the first product keep the shape. -/
theorem pay1_eq (v0 : Vec Ideal S784x512 .f32) (v2 : Vec Ideal S784x1024 .f32) (v7 : Vec Ideal S512x512 .f32) (v11 : Vec Ideal S10x512 .f32) :
    k0_pay1 (F := Ideal) v0 v2 v7 v11 = tileOut v0 v2 v7 v11 := by
  unfold k0_pay1 tileOut
  rw [shapeCast_self, shapeCast_self]

theorem pay2_eq (v14 : Vec Ideal S784x512 .f32) (v16 : Vec Ideal S784x1024 .f32) (v21 : Vec Ideal S512x512 .f32) (v25 : Vec Ideal S10x512 .f32) :
    k0_pay2 (F := Ideal) v14 v16 v21 v25 = tileOut v14 v16 v21 v25 := by
  unfold k0_pay2 tileOut
  rw [shapeCast_self, shapeCast_self]

end Cert.KernelIdeal.Tile

end
-- ==== Proof.OutBlock.lean ====
/-
  What the body leaves in the output block, entry by entry.

  The body handles its 2048 samples in two halves.  For each half it loads the first layer's weights, that half's
  1024 columns of the block of samples, and the other two layers' weights, runs the three layers, and stores the
  10 × 1024 result into the matching half of the 10 × 2048 output block.  The two stored rectangles do not meet, so
  entry (o, c) of the block comes from the first half when c < 1024 and from the second otherwise — in either case it
  is output o of the network on the sample in column c of the block of samples.
-/
import proofs.«132823_g41755672052512_cont_8to1_b_1445_26_alg».proof.Proof.Gen.KernelIdeal.Frame
import proofs.«132823_g41755672052512_cont_8to1_b_1445_26_alg».proof.Proof.Payload

noncomputable section

open scoped BigOperators

namespace Cert.KernelIdeal.Tile

open Cert.KernelIdeal Cert.KernelIdeal.Gen Idealize.ShloMosaic Idealize.ShloMosaic.ValueIdx

theorem zero_off : (![0, 0] : Fin 2 → Nat) = fun _ => 0 := funext fun a => by fin_cases a <;> rfl

/-- Two stores, the later into columns 1024 … 2047 and the earlier into columns 0 … 1023: an entry in the first half
    of the columns is the earlier store's. -/
theorem halves_lo (p0 p1 : Vec Ideal S10x1024 .f32) (o : Fin 10) (c : Fin 2048) (hc : c.val < 1024) :
    View.canon ([⟨r0_6, p0⟩, ⟨r0_4, p1⟩] : List (View.Piece (Elt Ideal) S10x2048 .f32)) (ix2 o c) = p1 (ix2 o ⟨c.val, hc⟩) := by
  have hnot : (ix2 o c : S10x2048.Idx) ∉ r0_6.set := by
    rw [Rect.mem_set_unit]
    intro h
    have h1 := (h 1).1
    have e1 : (![0, 1024] : Fin 2 → ℕ) 1 = 1024 := rfl
    have e2 : ((ix2 o c : S10x2048.Idx) 1 : ℕ) = c.val := rfl
    rw [e1, e2] at h1
    omega
  have e : (ix2 o c : S10x2048.Idx) = r0_4.emb (ix2 o (⟨c.val, hc⟩ : Fin 1024)) := funext fun a => Fin.ext (by
    match a with
    | ⟨0, _⟩ => show o.val = 0 + 1 * o.val; omega
    | ⟨1, _⟩ => show c.val = 0 + 1 * c.val; omega)
  rw [View.canon_cons_of_not_mem (Val := Elt Ideal) (s := S10x2048) (e := .f32) ⟨r0_6, p0⟩ [⟨r0_4, p1⟩] hnot, e]
  exact View.canon_cons_emb (Val := Elt Ideal) r0_4 p1 [] _

/-- An entry in the second half of the columns is the later store's, 1024 columns to the left. -/
theorem halves_hi (p0 p1 : Vec Ideal S10x1024 .f32) (o : Fin 10) (c : Fin 2048) (hc : 1024 ≤ c.val) :
    View.canon ([⟨r0_6, p0⟩, ⟨r0_4, p1⟩] : List (View.Piece (Elt Ideal) S10x2048 .f32)) (ix2 o c)
      = p0 (ix2 o ⟨c.val - 1024, by have := c.isLt; omega⟩) := by
  have e : (ix2 o c : S10x2048.Idx) = r0_6.emb (ix2 o (⟨c.val - 1024, by have := c.isLt; omega⟩ : Fin 1024)) := funext fun a => Fin.ext (by
    match a with
    | ⟨0, _⟩ => show o.val = 0 + 1 * o.val; omega
    | ⟨1, _⟩ => show c.val = 1024 + 1 * (c.val - 1024); omega)
  rw [e]
  exact View.canon_cons_emb (Val := Elt Ideal) r0_6 p0 [⟨r0_4, p1⟩] _

/-- Entry (o, c) of the output block, from the four input blocks as variables. -/
theorem out_block_apply (x0 : Vec Ideal S784x2048 .f32) (x1 : Vec Ideal S784x512 .f32) (x2 : Vec Ideal S512x512 .f32)
    (x3 : Vec Ideal S10x512 .f32) (o : Fin 10) (c : Fin 2048) :
    out0_4 (F := Ideal) x0 x1 x2 x3 (ix2 o c)
      = Cert.Mlp.forwardOne (fun i j => x1 (ix2 i j)) (fun i => x0 (ix2 i c)) (fun k j => x2 (ix2 k j)) (fun o k => x3 (ix2 o k)) o := by
  unfold out0_4
  by_cases hc : c.val < 1024
  · refine (halves_lo _ _ o c hc).trans ?_
    rw [pay1_eq, tileOut_apply]
    refine Cert.Mlp.forwardOne_congr (fun i j => ?_) (fun i => ?_) (fun k j => ?_) (fun o k => ?_) rfl
    · rw [View.ld_unit_zero zero_off]
    · refine congrArg x0 (funext fun a => Fin.ext ?_)
      match a with
      | ⟨0, _⟩ => show 0 + 1 * i.val = i.val; omega
      | ⟨1, _⟩ => show 0 + 1 * c.val = c.val; omega
    · rw [View.ld_unit_zero zero_off]
    · rw [View.ld_unit_zero zero_off]
  · refine (halves_hi _ _ o c (by omega)).trans ?_
    rw [pay2_eq, tileOut_apply]
    refine Cert.Mlp.forwardOne_congr (fun i j => ?_) (fun i => ?_) (fun k j => ?_) (fun o k => ?_) rfl
    · rw [View.ld_unit_zero zero_off]
    · refine congrArg x0 (funext fun a => Fin.ext ?_)
      match a with
      | ⟨0, _⟩ => show 0 + 1 * i.val = i.val; omega
      | ⟨1, _⟩ => show 1024 + 1 * (c.val - 1024) = c.val; omega
    · rw [View.ld_unit_zero zero_off]
    · rw [View.ld_unit_zero zero_off]

/-- The same at any index of the block. -/
theorem out_block (x0 : Vec Ideal S784x2048 .f32) (x1 : Vec Ideal S784x512 .f32) (x2 : Vec Ideal S512x512 .f32)
    (x3 : Vec Ideal S10x512 .f32) (y : S10x2048.Idx) :
    out0_4 (F := Ideal) x0 x1 x2 x3 y
      = Cert.Mlp.forwardOne (fun i j => x1 (ix2 i j)) (fun i => x0 (ix2 i (y 1))) (fun k j => x2 (ix2 k j)) (fun o k => x3 (ix2 o k)) (y 0) :=
  (congrArg (out0_4 (F := Ideal) x0 x1 x2 x3) (eq_ix2 y)).trans (out_block_apply x0 x1 x2 x3 (y 0) (y 1))

end Cert.KernelIdeal.Tile

end
-- ==== Proof.KernelValue.lean ====
/-
  What the kernel's program leaves in its result, as one function of the argument arrays.

  Before the launch the program exchanges the axes of the batch (784 × 16384: one sample per column) and of the first
  layer's weights (784 × 512: one unit per column).  The launch runs over 8 grid points; point t is handed columns
  2048·t … 2048·t + 2047 of the batch and the three weight arrays whole, and writes columns 2048·t … 2048·t + 2047
  of a 10 × 16384 array.  Entry (o, q) of what it writes is output o of the network on the sample in column q of its
  block, that is on sample 2048·t + q.  The eight blocks tile the 10 × 16384 array, so after the launch it holds, at
  (o, b), output o of sample b; the program then exchanges its axes.
-/
import proofs.«132823_g41755672052512_cont_8to1_b_1445_26_alg».proof.Proof.Gen.KernelIdeal.Frame
import proofs.«132823_g41755672052512_cont_8to1_b_1445_26_alg».proof.Proof.OutBlock
import Idealize.ShloMosaic.Lib.Pipeline.Value
import Idealize.ShloMosaic.Lib.StableHlo.Run

set_option maxRecDepth 16384

noncomputable section

open scoped BigOperators

namespace Cert.KernelIdeal.KValue

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ) (ρ : Dev nD → PrngReg)

/-- The array of outputs, from the argument arrays as launched on core c. -/
abbrev outs (c : Dev nD) : S10x16384.Idx → EReal :=
  Cert.Mlp.logitsT (m ((c : Thread nD τ).loc main_arg0)) (m ((c : Thread nD τ).loc main_arg1))
    (m ((c : Thread nD τ).loc main_arg2)) (m ((c : Thread nD τ).loc main_arg3))

/-! ## The arrays the launch finds -/

/-- The batch with its axes exchanged. -/
theorem V_xt (c : Dev nD) : (V m c main_call0_v0 : S784x16384.Idx → EReal)
    = transpose S784x16384 [1, 0] (m ((c : Thread nD τ).loc main_arg0)) transposes_S16384x784_S784x16384_1_0 := by
  show StableHlo.after hostOps0 (fun b => m (c, b)) (Proc.devRef .tc main_call0_v0) = _
  after_results; rfl

/-- The first layer's weights with their axes exchanged. -/
theorem V_w1t (c : Dev nD) : (V m c main_call0_v1 : S784x512.Idx → EReal)
    = transpose S784x512 [1, 0] (m ((c : Thread nD τ).loc main_arg1)) transposes_S512x784_S784x512_1_0 := by
  show StableHlo.after hostOps0 (fun b => m (c, b)) (Proc.devRef .tc main_call0_v1) = _
  after_results; rfl

/-- Feature i of sample b, in the exchanged batch. -/
theorem V_xt_apply (c : Dev nD) (i : Fin 784) (b : Fin 16384) :
    V m c main_call0_v0 (ix2 i b) = m ((c : Thread nD τ).loc main_arg0) (ix2 b i) := by
  rw [V_xt]
  exact transpose_apply [1, 0] _ transposes_S16384x784_S784x16384_1_0 (ix2 i b) (ix2 b i) (fun a => match a with
    | ⟨0, _⟩ => rfl
    | ⟨1, _⟩ => rfl)

/-- The weight of feature i for unit j, in the exchanged weights. -/
theorem V_w1t_apply (c : Dev nD) (i : Fin 784) (j : Fin 512) :
    V m c main_call0_v1 (ix2 i j) = m ((c : Thread nD τ).loc main_arg1) (ix2 j i) := by
  rw [V_w1t]
  exact transpose_apply [1, 0] _ transposes_S512x784_S784x512_1_0 (ix2 i j) (ix2 j i) (fun a => match a with
    | ⟨0, _⟩ => rfl
    | ⟨1, _⟩ => rfl)

/-! ## The blocks at a grid point -/

/-- The index maps over the grid: the batch's and the output's blocks move along axis 1 with the point, the weights'
    blocks stay at the origin. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- The block of samples at point t holds, at (i, q), feature i of sample 2048·t + q. -/
theorem blk_xt (c : Dev nD) (t : Fin cfg0.N) (i : Fin 784) (q : Fin 2048) (b : Fin 16384) (hb : b.val = t.val * 2048 + q.val) :
    iblk m c 0 t (ix2 i q) = m ((c : Thread nD τ).loc main_arg0) (ix2 b i) := by
  obtain ⟨e0, e1, -⟩ := idx_facts t
  refine Eq.trans ?_ (V_xt_apply m c i b)
  show V m c main_call0_v0 (((cfg0.win 0).blk t).view.emb (ix2 i q)) = V m c main_call0_v0 (ix2 i b)
  refine congrArg (V m c main_call0_v0) (funext fun a => Fin.ext ?_)
  match a with
  | ⟨0, _⟩ => show win0_0.index t (0 : Fin 2) * 784 + 1 * i.val = i.val; omega
  | ⟨1, _⟩ => show win0_0.index t (1 : Fin 2) * 2048 + 1 * q.val = b.val; omega

/-- The block of first-layer weights is the whole exchanged array. -/
theorem blk_w1t (c : Dev nD) (t : Fin cfg0.N) (i : Fin 784) (j : Fin 512) :
    iblk m c 1 t (ix2 i j) = m ((c : Thread nD τ).loc main_arg1) (ix2 j i) := by
  obtain ⟨-, -, e0, e1, -⟩ := idx_facts t
  refine Eq.trans ?_ (V_w1t_apply m c i j)
  show V m c main_call0_v1 (((cfg0.win 1).blk t).view.emb (ix2 i j)) = V m c main_call0_v1 (ix2 i j)
  refine congrArg (V m c main_call0_v1) (funext fun a => Fin.ext ?_)
  match a with
  | ⟨0, _⟩ => show win0_1.index t (0 : Fin 2) * 784 + 1 * i.val = i.val; omega
  | ⟨1, _⟩ => show win0_1.index t (1 : Fin 2) * 512 + 1 * j.val = j.val; omega

/-- The block of second-layer weights is the whole array. -/
theorem blk_w2 (c : Dev nD) (t : Fin cfg0.N) (k : Fin 512) (j : Fin 512) :
    iblk m c 2 t (ix2 k j) = m ((c : Thread nD τ).loc main_arg2) (ix2 k j) := by
  obtain ⟨-, -, -, -, e0, e1, -⟩ := idx_facts t
  refine Eq.trans ?_ (congrFun (V_main_arg2 m c) (ix2 k j))
  show V m c main_arg2 (((cfg0.win 2).blk t).view.emb (ix2 k j)) = V m c main_arg2 (ix2 k j)
  refine congrArg (V m c main_arg2) (funext fun a => Fin.ext ?_)
  match a with
  | ⟨0, _⟩ => show win0_2.index t (0 : Fin 2) * 512 + 1 * k.val = k.val; omega
  | ⟨1, _⟩ => show win0_2.index t (1 : Fin 2) * 512 + 1 * j.val = j.val; omega

/-- The block of last-layer weights is the whole array. -/
theorem blk_w3 (c : Dev nD) (t : Fin cfg0.N) (o : Fin 10) (k : Fin 512) :
    iblk m c 3 t (ix2 o k) = m ((c : Thread nD τ).loc main_arg3) (ix2 o k) := by
  obtain ⟨-, -, -, -, -, -, e0, e1, -⟩ := idx_facts t
  refine Eq.trans ?_ (congrFun (V_main_arg3 m c) (ix2 o k))
  show V m c main_arg3 (((cfg0.win 3).blk t).view.emb (ix2 o k)) = V m c main_arg3 (ix2 o k)
  refine congrArg (V m c main_arg3) (funext fun a => Fin.ext ?_)
  match a with
  | ⟨0, _⟩ => show win0_3.index t (0 : Fin 2) * 10 + 1 * o.val = o.val; omega
  | ⟨1, _⟩ => show win0_3.index t (1 : Fin 2) * 512 + 1 * k.val = k.val; omega

/-! ## What a point writes back, and the array after the launch -/

/-- Point t writes back block t of the array of outputs. -/
theorem flushed_eq (c : Dev nD) (t : Fin cfg0.N) :
    (dats m 0 c).flushed 4 t = ((cfg0.win 4).blk t).view.read (Elt Ideal) (outs m c) := by
  show (cfg0.win 4).cut (grid0.coords t) ((dats m 0 c).after 4 t) = _
  rw [after0_4]
  obtain ⟨-, -, -, -, -, -, -, -, e0, e1⟩ := idx_facts t
  funext y
  show out0_4 (iblk m c 0 t) (iblk m c 1 t) (iblk m c 2 t) (iblk m c 3 t) y
    = outs m c (((cfg0.win 4).blk t).view.emb y)
  refine (Cert.KernelIdeal.Tile.out_block _ _ _ _ y).trans ?_
  have hy0 : (y 0).val < 10 := (y 0).isLt
  have hy1 : (y 1).val < 2048 := (y 1).isLt
  have hN : cfg0.N = 8 := N_0
  have ht : t.val < 8 := hN ▸ t.isLt
  have hE0 : ((((cfg0.win 4).blk t).view.emb y) 0).val = (y 0).val := by
    show win0_4.index t (0 : Fin 2) * 10 + 1 * (y 0).val = (y 0).val; omega
  have hE1 : ((((cfg0.win 4).blk t).view.emb y) 1).val = t.val * 2048 + (y 1).val := by
    show win0_4.index t (1 : Fin 2) * 2048 + 1 * (y 1).val = t.val * 2048 + (y 1).val; omega
  unfold outs Cert.Mlp.logitsT
  refine Cert.Mlp.forwardOne_congr (fun i j => blk_w1t m c t i j) (fun i => blk_xt m c t i (y 1) _ hE1)
    (fun k j => blk_w2 m c t k j) (fun o k => blk_w3 m c t o k) (Fin.ext hE0.symm)

/-- An index of the array is in point t's block iff each coordinate is in the block's range on its axis. -/
theorem mem_blk (t : Fin cfg0.N) (i : S10x16384.Idx) :
    i ∈ ((cfg0.win 4).blk t).view.set ↔ ∀ a : Fin 2, win0_4.index t a * S10x2048.size a ≤ (i a).val
      ∧ (i a).val < win0_4.index t a * S10x2048.size a + S10x2048.size a := by
  show i ∈ ((View.whole main_call0_v2).slice (win0_4.rect t)).set ↔ _
  rw [View.set_slice_whole, Rect.mem_set_unit]
  exact Iff.rfl

/-- Column b lies in the block of point b / 2048. -/
theorem cover (i : S10x16384.Idx) : ∃ t : Fin cfg0.N, (cfg0.win 4).flush t = true ∧ i ∈ ((cfg0.win 4).blk t).view.set := by
  have hi0 : (i 0).val < 10 := (i 0).isLt
  have hi1 : (i 1).val < 16384 := (i 1).isLt
  have hN : cfg0.N = 8 := N_0
  obtain ⟨t, ht⟩ : ∃ t : Fin cfg0.N, t.val = (i 1).val / 2048 := ⟨⟨(i 1).val / 2048, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 10 ≤ (i 0).val ∧ (i 0).val < win0_4.index t (0 : Fin 2) * 10 + 10
    omega
  | ⟨1, _⟩ =>
    show win0_4.index t (1 : Fin 2) * 2048 ≤ (i 1).val ∧ (i 1).val < win0_4.index t (1 : Fin 2) * 2048 + 2048
    omega

/-- After the launch the 10 × 16384 array holds the array of outputs. -/
theorem final (c : Dev nD) : (dats m 0 c).arrAt 4 cfg0.N = outs m c :=
  (dats m 0 c).arrAt_eq_of_cover 4 (outs m c) (fun t _ => flushed_eq m c t) cover

/-! ## The result -/

/-- The program's result: the array of outputs with its axes exchanged. -/
theorem tail_eq (c : Dev nD) :
    Pipeline.afterTail₀ cfgs (dats m) 0 (V0 m) [hostOps1] c main_v0
      = transpose S16384x10 [1, 0] (outs m c) transposes_S10x16384_S16384x10_1_0 := by
  unfold Pipeline.afterTail₀
  show StableHlo.after hostOps1 _ (Proc.devRef .tc main_v0) = _
  after_results
  rw [(Pipeline.withArrays_arr spec0 launch0.win.arr_inj c _ _ 4).trans (final m c)]
  rfl

/-- Every weakly fair execution of the program ends with its result at the exchanged array of outputs and its
    arguments as launched. -/
theorem run : θ_run defs (onTc (τ := τ) (main (F := Ideal))) ⟨m, fun _ => 0, ρ⟩ fun r => ∀ c : Dev nD,
      r.2.mem ((c.tc : Thread nD τ).loc main_v0) = transpose S16384x10 [1, 0] (outs m c) transposes_S10x16384_S16384x10_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KValue

end
-- ==== Proof.lean ====
/-
  A three-layer network without biases — 784 features, two hidden layers of 512 units each followed by the positive
  part, 10 outputs — applied to a batch of 16384 samples.

  The reference forms W1 · Xᵀ, W2 · max(·, 0), W3 · max(·, 0) on whole arrays and exchanges the axes of the 10 × 16384
  result.  The kernel's program exchanges the axes of X and of W1 first, runs the three layers on blocks of 2048
  samples (two halves of 1024 at a time, the first product contracting the first axis of both exchanged operands),
  and exchanges the axes of the 10 × 16384 array the blocks tile.  Every sample goes through the same three weighted
  sums in both programs — each product term is the same pair of factors in the same order, each sum ranges over the
  same index set — so over the extended reals the two results agree entry by entry, whatever the inputs hold: no
  property of the inputs is used.  The ideal pass rewrote nothing, so the idealization claim is empty.
-/
import proofs.«132823_g41755672052512_cont_8to1_b_1445_26_alg».proof.Defs
import proofs.«132823_g41755672052512_cont_8to1_b_1445_26_alg».proof.Proof.Gen.Kernel
import proofs.«132823_g41755672052512_cont_8to1_b_1445_26_alg».proof.Proof.Gen.Kernel.Frame
import proofs.«132823_g41755672052512_cont_8to1_b_1445_26_alg».proof.Proof.Gen.KernelIdeal
import proofs.«132823_g41755672052512_cont_8to1_b_1445_26_alg».proof.Proof.Gen.KernelIdeal.Frame
import proofs.«132823_g41755672052512_cont_8to1_b_1445_26_alg».proof.Proof.Gen.ReferenceIdeal
import proofs.«132823_g41755672052512_cont_8to1_b_1445_26_alg».proof.Proof.Gen.ReferenceIdeal.Run
import proofs.«132823_g41755672052512_cont_8to1_b_1445_26_alg».proof.Proof.Gen.ReferenceIdeal.Read
import proofs.«132823_g41755672052512_cont_8to1_b_1445_26_alg».proof.Proof.Gen.Pre_finite_inputs
import proofs.«132823_g41755672052512_cont_8to1_b_1445_26_alg».proof.Proof.RefSide
import proofs.«132823_g41755672052512_cont_8to1_b_1445_26_alg».proof.Proof.KernelValue
import Idealize.ShloMosaic.Adequacy
import Idealize.ShloMosaic.Init

noncomputable section

namespace Cert.Proof

open Idealize.ShloMosaic Idealize.SL.Sem

/-- The word-level program runs and keeps its arguments. -/
theorem frame_k : Cert.frame_Kernel := fun m ρ _ => Cert.Kernel.Gen.frame m ρ

/-- So does the program read over the extended reals. -/
theorem frame_ki : Cert.frame_KernelIdeal := fun m ρ _ => Cert.KernelIdeal.Gen.frame m ρ

/-- The reference has no launch: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the array of the network's outputs, sample by sample, with its axes exchanged. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2.1, (hagree c).2.2.2]
  unfold Cert.ReferenceIdeal.Read.val_main_v6
  rw [Cert.ReferenceIdeal.RefValue.outputs_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
